-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x512 : Shape := ⟨3, ![4, 128, 512]⟩
abbrev S4 : Shape := ⟨1, ![4]⟩
abbrev S4x64x512 : Shape := ⟨3, ![4, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S4x128x512 : S_.BroadcastsInDim S4x128x512 (![] : Fin 0 → Fin S4x128x512.rank)
  reducesTo_S4x128x512_S_d0_1_2 : S4x128x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg6
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x128x512 .f32) (main_arg1 : IVec S4 32) (main_arg2 : FVec F S4x64x512 .f32) (main_arg3 : IVec S4 32) (main_arg4 : FVec F S1024x640 .f32) (main_arg5 : FVec F S640 .f32) (main_arg6 : FVec F S640x1024 .f32) (main_arg7 : FVec F S1024 .f32) : IVec S_ 1 :=
  let main_v0 : FVec F S4x128x512 .f32 := Host.absf main_arg0
  let main_cst : FVec F S_ .f32 := constant S_ .f32 0x7F800000#32
  let main_v1 : FVec F S4x128x512 .f32 := broadcastInDim S4x128x512 ![] bcast_S_S4x128x512 main_cst
  let main_v2 : IVec S4x128x512 1 := cmpf .olt main_v0 main_v1
  let main_c : IVec S_ 1 := constantI S_ 1 1#1
  let main_v3 : IVec S_ 1 := (fun x v => Host.reduce IntOp.andi x v reducesTo_S4x128x512_S_d0_1_2 h_S_) main_v2 main_c
  let main_v4 : FVec F S4x64x512 .f32 := Host.absf main_arg2
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x640 .f32 := Host.absf main_arg4
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg5
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg6 main_arg7 main_v13 main_v16
-- ==== Kernel.lean ====
abbrev S4x128x512 : Shape := ⟨3, ![4, 128, 512]⟩
abbrev S4 : Shape := ⟨1, ![4]⟩
abbrev S4x64x512 : Shape := ⟨3, ![4, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S1x640 : Shape := ⟨2, ![1, 640]⟩
abbrev S1x1024 : Shape := ⟨2, ![1, 1024]⟩
abbrev S4x128x64x1024 : Shape := ⟨4, ![4, 128, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S32x512 : Shape := ⟨2, ![32, 512]⟩
abbrev S32x640 : Shape := ⟨2, ![32, 640]⟩
abbrev S64x512 : Shape := ⟨2, ![64, 512]⟩
abbrev S64x640 : Shape := ⟨2, ![64, 640]⟩
abbrev S4x640 : Shape := ⟨2, ![4, 640]⟩
abbrev S4x1x640 : Shape := ⟨3, ![4, 1, 640]⟩
abbrev S1x64x640 : Shape := ⟨3, ![1, 64, 640]⟩
abbrev S4x64x640 : Shape := ⟨3, ![4, 64, 640]⟩
abbrev S1x1x640 : Shape := ⟨3, ![1, 1, 640]⟩
abbrev S256x640 : Shape := ⟨2, ![256, 640]⟩
abbrev S256x1024 : Shape := ⟨2, ![256, 1024]⟩
abbrev S256 : Shape := ⟨1, ![256]⟩
abbrev S256x1 : Shape := ⟨2, ![256, 1]⟩
abbrev S4x64x1024 : Shape := ⟨3, ![4, 64, 1024]⟩
abbrev S1x4x64x1024 : Shape := ⟨4, ![1, 4, 64, 1024]⟩

abbrev nBuf : Space → Nat
  | .hbm => 18
  | .vmem => 11
  | .smem => 0
  | _ => 0

abbrev bufTy : (tb : Table) → Fin (tcTables nBuf tb) → BufTy
  | .hbm, ⟨0, _⟩ => ⟨S4x128x512, .f32⟩
  | .hbm, ⟨1, _⟩ => ⟨S4, .i32⟩
  | .hbm, ⟨2, _⟩ => ⟨S4x64x512, .f32⟩
  | .hbm, ⟨3, _⟩ => ⟨S4, .i32⟩
  | .hbm, ⟨4, _⟩ => ⟨S1024x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S4x128x512, .bf16⟩
  | .hbm, ⟨9, _⟩ => ⟨S4x64x512, .bf16⟩
  | .hbm, ⟨10, _⟩ => ⟨S512x640, .f32⟩
  | .hbm, ⟨11, _⟩ => ⟨S512x640, .bf16⟩
  | .hbm, ⟨12, _⟩ => ⟨S512x640, .f32⟩
  | .hbm, ⟨13, _⟩ => ⟨S512x640, .bf16⟩
  | .hbm, ⟨14, _⟩ => ⟨S640x1024, .bf16⟩
  | .hbm, ⟨15, _⟩ => ⟨S1x640, .f32⟩
  | .hbm, ⟨16, _⟩ => ⟨S1x1024, .f32⟩
  | .hbm, ⟨17, _⟩ => ⟨S4x128x64x1024, .f32⟩
  | .local _ .vmem, ⟨0, _⟩ => ⟨S1x32x512, .bf16⟩
  | .local _ .vmem, ⟨1, _⟩ => ⟨S1x32x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x640, .bf16⟩
  | .local _ .vmem, ⟨5, _⟩ => ⟨S512x640, .bf16⟩
  | .local _ .vmem, ⟨6, _⟩ => ⟨S1x640, .f32⟩
  | .local _ .vmem, ⟨7, _⟩ => ⟨S640x1024, .bf16⟩
  | .local _ .vmem, ⟨8, _⟩ => ⟨S1x1024, .f32⟩
  | .local _ .vmem, ⟨9, _⟩ => ⟨S1x32x64x1024, .f32⟩
  | .local _ .vmem, ⟨10, _⟩ => ⟨S1x32x64x1024, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  slices_S1024x640_S512x640_0_0 : S1024x640.Slices ![0, 0] S512x640
  slices_S1024x640_S512x640_512_0 : S1024x640.Slices ![512, 0] S512x640
  shapeCasts_S640_S1x640 : S640.ShapeCasts S1x640
  shapeCasts_S1024_S1x1024 : S1024.ShapeCasts S1x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x640_S1x640_0_0 : ∀ a, (![0, 0] : Fin 2 → Nat) a + S1x640.size a ≤ S1x640.size a
  h_S1x640 : 0 < S1x640.numel
  shapeCasts_S1x640_S640 : S1x640.ShapeCasts S640
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  slices_S32x640_o0_0_S4x640 : S32x640.Slices ![0, 0] S4x640
  shapeCasts_S4x640_S4x1x640 : S4x640.ShapeCasts S4x1x640
  shapeCasts_S64x640_S1x64x640 : S64x640.ShapeCasts S1x64x640
  broadcasts_S4x1x640_S4x64x640 : S4x1x640.Broadcasts S4x64x640
  broadcasts_S1x64x640_S4x64x640 : S1x64x640.Broadcasts S4x64x640
  shapeCasts_S640_S1x1x640 : S640.ShapeCasts S1x1x640
  broadcasts_S1x1x640_S4x64x640 : S1x1x640.Broadcasts S4x64x640
  shapeCasts_S4x64x640_S256x640 : S4x64x640.ShapeCasts S256x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  shapeCasts_S256x1024_S4x64x1024 : S256x1024.ShapeCasts S4x64x1024
  inb_S1x32x64x1024_S1x4x64x1024_0_0_0_0 : ∀ a, (![0, 0, 0, 0] : Fin 4 → Nat) a + S1x4x64x1024.size a ≤ S1x32x64x1024.size a
  h_S1x4x64x1024 : 0 < S1x4x64x1024.numel
  shapeCasts_S1x4x64x1024_S4x64x1024 : S1x4x64x1024.ShapeCasts S4x64x1024
  shapeCasts_S4x64x1024_S1x4x64x1024 : S4x64x1024.ShapeCasts S1x4x64x1024
  slices_S32x640_o4_0_S4x640 : S32x640.Slices ![4, 0] S4x640
  inb_S1x32x64x1024_S1x4x64x1024_0_4_0_0 : ∀ a, (![0, 4, 0, 0] : Fin 4 → Nat) a + S1x4x64x1024.size a ≤ S1x32x64x1024.size a
  slices_S32x640_o8_0_S4x640 : S32x640.Slices ![8, 0] S4x640
  inb_S1x32x64x1024_S1x4x64x1024_0_8_0_0 : ∀ a, (![0, 8, 0, 0] : Fin 4 → Nat) a + S1x4x64x1024.size a ≤ S1x32x64x1024.size a
  slices_S32x640_o12_0_S4x640 : S32x640.Slices ![12, 0] S4x640
  inb_S1x32x64x1024_S1x4x64x1024_0_12_0_0 : ∀ a, (![0, 12, 0, 0] : Fin 4 → Nat) a + S1x4x64x1024.size a ≤ S1x32x64x1024.size a
  slices_S32x640_o16_0_S4x640 : S32x640.Slices ![16, 0] S4x640
  inb_S1x32x64x1024_S1x4x64x1024_0_16_0_0 : ∀ a, (![0, 16, 0, 0] : Fin 4 → Nat) a + S1x4x64x1024.size a ≤ S1x32x64x1024.size a
  slices_S32x640_o20_0_S4x640 : S32x640.Slices ![20, 0] S4x640
  inb_S1x32x64x1024_S1x4x64x1024_0_20_0_0 : ∀ a, (![0, 20, 0, 0] : Fin 4 → Nat) a + S1x4x64x1024.size a ≤ S1x32x64x1024.size a
  slices_S32x640_o24_0_S4x640 : S32x640.Slices ![24, 0] S4x640
  inb_S1x32x64x1024_S1x4x64x1024_0_24_0_0 : ∀ a, (![0, 24, 0, 0] : Fin 4 → Nat) a + S1x4x64x1024.size a ≤ S1x32x64x1024.size a
  slices_S32x640_o28_0_S4x640 : S32x640.Slices ![28, 0] S4x640
  inb_S1x32x64x1024_S1x4x64x1024_0_28_0_0 : ∀ a, (![0, 28, 0, 0] : Fin 4 → Nat) a + S1x4x64x1024.size a ≤ S1x32x64x1024.size a
  dot_S32x512_S512x640_S32x640_1_0_0_1_n_n_wf : DotDims.WF S32x512 S512x640 S32x640 [1] [0] [0] [1] [] []
  dot_S64x512_S512x640_S64x640_1_0_0_1_n_n_wf : DotDims.WF S64x512 S512x640 S64x640 [1] [0] [0] [1] [] []
  dot_S256x640_S640x1024_S256x1024_1_0_0_1_n_n_wf : DotDims.WF S256x640 S640x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x128x512.size a
  hwx0_0 : ∀ i : grid0.Coords, EltTy.bits .bf16 = 32 ∨ (Rect.block (s := S4x128x512) S1x32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .bf16 = 32 ∨ (Rect.block (s := S4x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .bf16 = 32 ∨ (Rect.block (s := S512x640) S512x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S640x1024.size a
  hwx0_5 : ∀ i : grid0.Coords, EltTy.bits .bf16 = 32 ∨ (Rect.block (s := S640x1024) S640x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64x1024.size a ≤ S4x128x64x1024.size a
  hwx0_7 : ∀ i : grid0.Coords, EltTy.bits .f32 = 32 ∨ (Rect.block (s := S4x128x64x1024) S1x32x64x1024.size (cc0_transform_7 i) (hinb0_7 i)).WholeWords (EltTy.packing .f32)

variable [Facts₀]

def dot_S32x512_S512x640_S32x640_1_0_0_1_n_n : DotDims S32x512 S512x640 S32x640 where
  lhsContracting := [1]
  rhsContracting := [0]
  lhsNonContracting := [0]
  rhsNonContracting := [1]
  lhsBatch := []
  rhsBatch := []
  wf := dot_S32x512_S512x640_S32x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S256x640_S640x1024_S256x1024_1_0_0_1_n_n : DotDims S256x640 S640x1024 S256x1024 where
  lhsContracting := [1]
  rhsContracting := [0]
  lhsNonContracting := [0]
  rhsNonContracting := [1]
  lhsBatch := []
  rhsBatch := []
  wf := dot_S256x640_S640x1024_S256x1024_1_0_0_1_n_n_wf

abbrev win0_0 : Pipeline.Window sig grid0 :=
  Pipeline.Window.ofSpec (Memref.whole main_v0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S640x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x32x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x128x512 : Shape := ⟨3, ![4, 128, 512]⟩
abbrev S4 : Shape := ⟨1, ![4]⟩
abbrev S4x64x512 : Shape := ⟨3, ![4, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S4x128x640 : Shape := ⟨3, ![4, 128, 640]⟩
abbrev S4x64x640 : Shape := ⟨3, ![4, 64, 640]⟩
abbrev S4x128x1x640 : Shape := ⟨4, ![4, 128, 1, 640]⟩
abbrev S4x1x64x640 : Shape := ⟨4, ![4, 1, 64, 640]⟩
abbrev S4x128x64x640 : Shape := ⟨4, ![4, 128, 64, 640]⟩
abbrev S1x1x1x640 : Shape := ⟨4, ![1, 1, 1, 640]⟩
abbrev S4x128x64x1024 : Shape := ⟨4, ![4, 128, 64, 1024]⟩
abbrev S1x1x1x1024 : Shape := ⟨4, ![1, 1, 1, 1024]⟩
abbrev S_ : Shape := ⟨0, ![]⟩
abbrev S4x128x64 : Shape := ⟨3, ![4, 128, 64]⟩
abbrev S4x128x64x1 : Shape := ⟨4, ![4, 128, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4, .i32⟩
  | .hbm, ⟨2, _⟩ => ⟨S4x64x512, .f32⟩
  | .hbm, ⟨3, _⟩ => ⟨S4, .i32⟩
  | .hbm, ⟨4, _⟩ => ⟨S1024x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S512x640, .f32⟩
  | .hbm, ⟨9, _⟩ => ⟨S512x640, .f32⟩
  | .hbm, ⟨10, _⟩ => ⟨S4x128x640, .f32⟩
  | .hbm, ⟨11, _⟩ => ⟨S4x64x640, .f32⟩
  | .hbm, ⟨12, _⟩ => ⟨S4x128x1x640, .f32⟩
  | .hbm, ⟨13, _⟩ => ⟨S4x1x64x640, .f32⟩
  | .hbm, ⟨14, _⟩ => ⟨S4x128x64x640, .f32⟩
  | .hbm, ⟨15, _⟩ => ⟨S4x128x64x640, .f32⟩
  | .hbm, ⟨16, _⟩ => ⟨S4x128x64x640, .f32⟩
  | .hbm, ⟨17, _⟩ => ⟨S1x1x1x640, .f32⟩
  | .hbm, ⟨18, _⟩ => ⟨S4x128x64x640, .f32⟩
  | .hbm, ⟨19, _⟩ => ⟨S4x128x64x640, .f32⟩
  | .hbm, ⟨20, _⟩ => ⟨S4x128x64x640, .f32⟩
  | .hbm, ⟨21, _⟩ => ⟨S4x128x64x1024, .f32⟩
  | .hbm, ⟨22, _⟩ => ⟨S1x1x1x1024, .f32⟩
  | .hbm, ⟨23, _⟩ => ⟨S4x128x64x1024, .f32⟩
  | .hbm, ⟨24, _⟩ => ⟨S4x128x64x1024, .f32⟩
  | .hbm, ⟨25, _⟩ => ⟨S_, .f32⟩
  | .hbm, ⟨26, _⟩ => ⟨S4x128x64, .f32⟩
  | .hbm, ⟨27, _⟩ => ⟨S_, .f32⟩
  | .hbm, ⟨28, _⟩ => ⟨S4x128x64, .f32⟩
  | .hbm, ⟨29, _⟩ => ⟨S4x128x64, .f32⟩
  | .hbm, ⟨30, _⟩ => ⟨S4x128x64x1, .f32⟩
  | .hbm, ⟨31, _⟩ => ⟨S4x128x64x1024, .f32⟩
  | .hbm, ⟨32, _⟩ => ⟨S4x128x64x1024, .f32⟩
  | .hbm, ⟨33, _⟩ => ⟨S4x128x64x1024, .f32⟩
  | .hbm, ⟨34, _⟩ => ⟨S_, .f32⟩
  | .hbm, ⟨35, _⟩ => ⟨S4x128x64, .f32⟩
  | .hbm, ⟨36, _⟩ => ⟨S4x128x64x1, .f32⟩
  | .hbm, ⟨37, _⟩ => ⟨S4x128x64x1, .f32⟩
  | .hbm, ⟨38, _⟩ => ⟨S4x128x64x1024, .f32⟩
  | .hbm, ⟨39, _⟩ => ⟨S4x128x64x1024, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v17 : Ref sig .tc := ⟨.hbm, 39, rfl⟩

abbrev nD : Nat := 1
abbrev τ : Topo := Topo.v7x

variable {F : FTy → Type} [FloatOps F]

class Facts₀ : Prop where
  slices_S1024x640_S512x640_0_0 : S1024x640.Slices ![0, 0] S512x640
  slices_S1024x640_S512x640_512_0 : S1024x640.Slices ![512, 0] S512x640
  bcast_S4x128x640_S4x128x1x640_0_1_3 : S4x128x640.BroadcastsInDim S4x128x1x640 (![0, 1, 3] : Fin 3 → Fin S4x128x1x640.rank)
  bcast_S4x64x640_S4x1x64x640_0_2_3 : S4x64x640.BroadcastsInDim S4x1x64x640 (![0, 2, 3] : Fin 3 → Fin S4x1x64x640.rank)
  bcast_S4x128x1x640_S4x128x64x640_0_1_2_3 : S4x128x1x640.BroadcastsInDim S4x128x64x640 (![0, 1, 2, 3] : Fin 4 → Fin S4x128x64x640.rank)
  bcast_S4x1x64x640_S4x128x64x640_0_1_2_3 : S4x1x64x640.BroadcastsInDim S4x128x64x640 (![0, 1, 2, 3] : Fin 4 → Fin S4x128x64x640.rank)
  bcast_S640_S1x1x1x640_3 : S640.BroadcastsInDim S1x1x1x640 (![3] : Fin 1 → Fin S1x1x1x640.rank)
  bcast_S1x1x1x640_S4x128x64x640_0_1_2_3 : S1x1x1x640.BroadcastsInDim S4x128x64x640 (![0, 1, 2, 3] : Fin 4 → Fin S4x128x64x640.rank)
  bcast_S1024_S1x1x1x1024_3 : S1024.BroadcastsInDim S1x1x1x1024 (![3] : Fin 1 → Fin S1x1x1x1024.rank)
  bcast_S1x1x1x1024_S4x128x64x1024_0_1_2_3 : S1x1x1x1024.BroadcastsInDim S4x128x64x1024 (![0, 1, 2, 3] : Fin 4 → Fin S4x128x64x1024.rank)
  reducesTo_S4x128x64x1024_S4x128x64_d3 : S4x128x64x1024.ReducesTo [3] S4x128x64
  h_S_ : 0 < S_.numel
  bcast_S_S4x128x64 : S_.BroadcastsInDim S4x128x64 (![] : Fin 0 → Fin S4x128x64.rank)
  bcast_S4x128x64_S4x128x64x1_0_1_2 : S4x128x64.BroadcastsInDim S4x128x64x1 (![0, 1, 2] : Fin 3 → Fin S4x128x64x1.rank)
  bcast_S4x128x64x1_S4x128x64x1024_0_1_2_3 : S4x128x64x1.BroadcastsInDim S4x128x64x1024 (![0, 1, 2, 3] : Fin 4 → Fin S4x128x64x1024.rank)
  dot_S4x128x512_S512x640_S4x128x640_2_0_01_1_n_n_wf : DotDims.WF S4x128x512 S512x640 S4x128x640 [2] [0] [0, 1] [1] [] []
  dot_S4x64x512_S512x640_S4x64x640_2_0_01_1_n_n_wf : DotDims.WF S4x64x512 S512x640 S4x64x640 [2] [0] [0, 1] [1] [] []
  dot_S4x128x64x640_S640x1024_S4x128x64x1024_3_0_012_1_n_n_wf : DotDims.WF S4x128x64x640 S640x1024 S4x128x64x1024 [3] [0] [0, 1, 2] [1] [] []

variable [Facts₀]

def dot_S4x128x512_S512x640_S4x128x640_2_0_01_1_n_n : DotDims S4x128x512 S512x640 S4x128x640 where
  lhsContracting := [2]
  rhsContracting := [0]
  lhsNonContracting := [0, 1]
  rhsNonContracting := [1]
  lhsBatch := []
  rhsBatch := []
  wf := dot_S4x128x512_S512x640_S4x128x640_2_0_01_1_n_n_wf
def dot_S4x64x512_S512x640_S4x64x640_2_0_01_1_n_n : DotDims S4x64x512 S512x640 S4x64x640 where
  lhsContracting := [2]
  rhsContracting := [0]
  lhsNonContracting := [0, 1]
  rhsNonContracting := [1]
  lhsBatch := []
  rhsBatch := []
  wf := dot_S4x64x512_S512x640_S4x64x640_2_0_01_1_n_n_wf
def dot_S4x128x64x640_S640x1024_S4x128x64x1024_3_0_012_1_n_n : DotDims S4x128x64x640 S640x1024 S4x128x64x1024 where
  lhsContracting := [3]
  rhsContracting := [0]
  lhsNonContracting := [0, 1, 2]
  rhsNonContracting := [1]
  lhsBatch := []
  rhsBatch := []
  wf := dot_S4x128x64x640_S640x1024_S4x128x64x1024_3_0_012_1_n_n_wf

class Facts : Prop extends Facts₀ where

variable [Facts]
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«153883_j29824252903691_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibKeepdims.lean ====
/-
  Changes of layout between a matrix of rows and a three-axis array, read at an index, for any sizes.

  An [a, b] array viewed as [a, b, 1] (a trailing unit axis added), an [a, b, 1] array repeated along its unit axis to
  [a, b, c], and the two casts between [a, b, c] and [m, c] with m = a · b (the leading two axes merged into rows,
  row i · b + j, and split back): each result entry is one operand entry, named here by coordinates.
-/
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if 1 = 1 then 0 else k.val
    rfl

/-- An `[a, b, c]` array cast to `[m, c]` reads, at row `i * b + j` and column `k`, the operand at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[m, c]` array cast to `[a, b, c]` reads, at `(i, j, k)`, the operand at row `i * b + j` and column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Layout

end Cert.LibKeepdims

end
-- ==== Proof.LibRowForms.lean ====
/-
  Rows and columns of a matrix and of a three-axis array, read at an index, for any sizes.

  A vector of row values kept as a column ([a] viewed [a, 1]) and repeated across the columns ([a, 1] to [a, b]); a middle
  unit axis added to a matrix ([a, b] viewed [a, 1, b]) and an array repeated along a unit axis in the middle ([a, 1, c] to
  [a, b, c]), along a leading one ([1, b, c] to [a, b, c]) or along both ([c] viewed [1, 1, c], then [1, 1, c] to [a, b, c]):
  each result entry is one operand entry, named here by coordinates. And, over the exact extended reals, the sum and the
  maximum of a matrix along its rows: at row r the sum over the columns k of the entry (r, k), and the fold of max over them
  from the accumulator's value.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowForms

open Idealize.ShloMosaic Idealize.ShloMosaic.ValueIdx

section Layout
variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array broadcast to `[a, b]` reads, at `(r, c)`, the operand's row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if 1 = 1 then 0 else c.val
    rfl

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if 1 = 1 then 0 else j.val
    rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show 0 = if 1 = 1 then 0 else i.val
    rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` array cast to `[1, 1, c]` reads, at `(u, w, k)`, the operand at `k`. -/
theorem shapeCast_c_11c_apply {c : ℕ} (x : (⟨1, ![c]⟩ : Shape).Idx → α) (h : (⟨1, ![c]⟩ : Shape).ShapeCasts ⟨3, ![1, 1, c]⟩)
    (u w : Fin 1) (k : Fin c) : shapeCast ⟨3, ![1, 1, c]⟩ x h (ix3 u w k) = x (ix1 k) :=
  shapeCast_apply x h _ _ (by
    have hu : u.val = 0 := by omega
    have hw : w.val = 0 := by omega
    rw [Shape.rowMajor_val_three, Shape.rowMajor_val_one]
    show k.val = (u.val * 1 + w.val) * c + k.val
    rw [hu, hw]
    simp)

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show 0 = if 1 = 1 then 0 else i.val
    rfl
  | ⟨1, _⟩ =>
    show 0 = if 1 = 1 then 0 else j.val
    rfl
  | ⟨2, _⟩ =>
    show k.val = if c = 1 then 0 else k.val
    split
    · have := k.isLt; omega
    · rfl

end Layout

section Reductions
variable {φ : FTy} {a b : ℕ}

/-- Reducing a matrix along its rows, the index of row `r` with column `k` put back is `(r, k)`. -/
theorem lift_row (h : (⟨2, ![a, b]⟩ : Shape).Reduces [(1 : Fin 2)] ⟨1, ![a]⟩) (r : Fin a) (k : Fin b) :
    h.lift (ix1 r) k = ix2 r k :=
  funext fun c => Fin.ext (by
    match c with
    | ⟨0, _⟩ => rfl
    | ⟨1, _⟩ => rfl)

/-- The sum of a matrix along its rows, over the exact extended reals: at row `r`, the sum over the columns. -/
theorem multiReduction_add_row (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single src acc h hφ hacc (ix1 r)]
  exact Finset.sum_congr rfl fun k _ => congrArg src (lift_row h r k)

/-- The maximum of a matrix along its rows, over the exact extended reals: at row `r`, the fold of `max` over the columns
    from the accumulator's value. -/
theorem multiReduction_max_row (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ)
    (r : Fin a) :
    multiReduction .maximumf [(1 : Fin 2)] ⟨1, ![a]⟩ src acc h hφ hacc (ix1 r)
      = (Finset.univ : Finset (Fin b)).fold max (Ideal.ofBits φ acc) fun k => src (ix2 r k) := by
  rw [Ideal.multiReduction_maximumf_single src acc h hφ hacc (ix1 r)]
  exact congrArg (Finset.fold max (Ideal.ofBits φ acc) · (Finset.univ : Finset (Fin b))) (funext fun k => congrArg src (lift_row h r k))

end Reductions

end Cert.LibRowForms

end
-- ==== Proof.JoinerSpec.lean ====
/-
  The transducer joiner, entry by entry, over the exact extended reals.

  For a source frame t and a target position u of batch b, the hidden row is tanh((ps + pt) + b1), where ps is the source
  frame's 512 features against the upper half of the first weight matrix and pt the target position's 512 features
  against its lower half; the logits are that row against the second weight matrix, plus the second bias; and the result is
  the log-softmax of the logits along the vocabulary: each logit minus the row's maximum, minus the logarithm of the sum of
  the exponentials of those differences. The row's maximum is the fold of max from the f32 word of minus infinity, and the
  additions are grouped as written; no law of the extended reals beyond that grouping is used to state it.

  `result` is the whole [4, 128, 64, 1024] array as one function of the six argument arrays. `blockResult` is the same rows
  computed from one grid point's blocks: 32 source frames of one batch, that batch's 64 target positions, the two halves
  of the first weight matrix, and the biases kept as one-row matrices.
-/
import Idealize.ShloMosaic.Lib.ValueIdx
import Idealize.ShloMosaic.PureOps.Ideal.Laws

noncomputable section

open scoped BigOperators

namespace Cert.Joiner

open Idealize.ShloMosaic Idealize.ShloMosaic.ValueIdx

section Rows
variable {H V : ℕ}

/-- The hidden row: tanh of the two projections' sum plus the bias, the additions grouped (ps + pt) + b1. -/
def hiddenRow (ps pt b1 : Fin H → EReal) : Fin H → EReal := fun h => Ideal.tanh ((ps h + pt h) + b1 h)

/-- The logits of a hidden row: the row against the weight matrix, plus the bias. -/
def logitRow (a : Fin H → EReal) (w2 : Fin H → Fin V → EReal) (b2 : Fin V → EReal) : Fin V → EReal :=
  fun v => (∑ h : Fin H, a h * w2 h v) + b2 v

/-- A row's maximum: the fold of max over its entries from minus infinity's f32 word. -/
def rowMax (lg : Fin V → EReal) : EReal := (Finset.univ : Finset (Fin V)).fold max (Ideal.ofBits .f32 0xFF800000#32) lg

/-- The log-softmax of a row: each entry minus the maximum, minus the log of the sum of the exponentials of those. -/
def logSoftmaxRow (lg : Fin V → EReal) : Fin V → EReal :=
  fun v => (lg v - rowMax lg) - Ideal.log (∑ k : Fin V, Ideal.exp (lg k - rowMax lg))

/-- One output row from the two projections' rows, the biases and the second weight matrix. -/
def outRow (ps pt b1 : Fin H → EReal) (w2 : Fin H → Fin V → EReal) (b2 : Fin V → EReal) : Fin V → EReal :=
  logSoftmaxRow (logitRow (hiddenRow ps pt b1) w2 b2)

end Rows

/-- Row d of the upper half of a 1024-row matrix. -/
def rowLo (d : Fin 512) : Fin 1024 := ⟨d.val, by have := d.isLt; omega⟩
/-- Row d of the lower half: row 512 + d. -/
def rowHi (d : Fin 512) : Fin 1024 := ⟨512 + d.val, by have := d.isLt; omega⟩

/-- The whole result: at (b, t, u, v), entry v of the output row of source frame (b, t) and target position (b, u). -/
def result (x0 : (⟨3, ![4, 128, 512]⟩ : Shape).Idx → EReal) (x2 : (⟨3, ![4, 64, 512]⟩ : Shape).Idx → EReal)
    (x4 : (⟨2, ![1024, 640]⟩ : Shape).Idx → EReal) (x5 : (⟨1, ![640]⟩ : Shape).Idx → EReal)
    (x6 : (⟨2, ![640, 1024]⟩ : Shape).Idx → EReal) (x7 : (⟨1, ![1024]⟩ : Shape).Idx → EReal) :
    (⟨4, ![4, 128, 64, 1024]⟩ : Shape).Idx → EReal := fun i =>
  outRow (fun h => ∑ d : Fin 512, x0 (ix3 (i 0) (i 1) d) * x4 (ix2 (rowLo d) h))
    (fun h => ∑ d : Fin 512, x2 (ix3 (i 0) (i 2) d) * x4 (ix2 (rowHi d) h))
    (fun h => x5 (ix1 h)) (fun h v => x6 (ix2 h v)) (fun v => x7 (ix1 v)) (i 3)

/-- The same rows from one grid point's blocks: at (0, t, u, v) of the [1, 32, 64, 1024] block, entry v of the output row
    of the block's source frame t and target position u. -/
def blockResult (s : (⟨3, ![1, 32, 512]⟩ : Shape).Idx → EReal) (g : (⟨3, ![1, 64, 512]⟩ : Shape).Idx → EReal)
    (w1s w1t : (⟨2, ![512, 640]⟩ : Shape).Idx → EReal) (b1 : (⟨2, ![1, 640]⟩ : Shape).Idx → EReal)
    (w2 : (⟨2, ![640, 1024]⟩ : Shape).Idx → EReal) (b2 : (⟨2, ![1, 1024]⟩ : Shape).Idx → EReal) :
    (⟨4, ![1, 32, 64, 1024]⟩ : Shape).Idx → EReal := fun y =>
  outRow (fun h => ∑ d : Fin 512, s (ix3 (0 : Fin 1) (y 1) d) * w1s (ix2 d h))
    (fun h => ∑ d : Fin 512, g (ix3 (0 : Fin 1) (y 2) d) * w1t (ix2 d h))
    (fun h => b1 (ix2 (0 : Fin 1) h)) (fun h v => w2 (ix2 h v)) (fun v => b2 (ix2 (0 : Fin 1) v)) (y 3)

end Cert.Joiner

end
-- ==== Proof.JoinerChunk.lean ====
/-
  One chunk of the joiner's body, read at an index.

  The body works on four source frames at a time. For the four frames starting at row o of the grid point's source
  projection it forms the hidden activations of the 4 × 64 pairs (frame, target position), lays the pairs out as 256 rows
  (row 64 · t + u for frame t and position u), multiplies by the second weight matrix into a zero accumulator and adds the
  bias, and takes the log-softmax of each of the 256 rows, which it stores as a [1, 4, 64, 1024] piece of the output block.
  The three stages are named here as the body spells them, for any offset o, and each is read at an index: an entry of the
  piece is an entry of the specification's output row (Cert.Joiner.outRow) of the frame's and the position's projections.
-/
import proofs.«153883_j29824252903691_2_alg».proof.Proof.Gen.KernelIdeal.Skeleton
import proofs.«153883_j29824252903691_2_alg».proof.Proof.LibPlainDot
import proofs.«153883_j29824252903691_2_alg».proof.Proof.LibKeepdims
import proofs.«153883_j29824252903691_2_alg».proof.Proof.LibRowForms
import proofs.«153883_j29824252903691_2_alg».proof.Proof.JoinerSpec
import Idealize.ShloMosaic.Lib.ValueLayout
import Idealize.ShloMosaic.Lib.Pipeline.Value

noncomputable section

open scoped BigOperators

namespace Cert.KernelIdeal.Chunk

open Cert.KernelIdeal Cert.KernelIdeal.Gen Idealize.ShloMosaic Idealize.ShloMosaic.ValueIdx Cert.Joiner
open Cert.LibRowForms Cert.LibKeepdims

section Stages
variable {F : FTy → Type} [FloatOps F]

/-- The hidden activations of the four frames from row `o`: tanh((ps[o + t] + pt[u]) + b1), over (t, u, h). -/
def hidden (o : ℕ) (hs : S32x640.Slices ![o, 0] S4x640) (ps : FVec F S32x640 .f32) (pt : FVec F S64x640 .f32)
    (b1 : FVec F S640 .f32) : FVec F S4x64x640 .f32 :=
  tanh (addf
    (addf
      (broadcastTo S4x64x640 (shapeCast S4x1x640 (extractStridedSlice S4x640 ![o, 0] ps hs) shapeCasts_S4x640_S4x1x640)
        broadcasts_S4x1x640_S4x64x640)
      (broadcastTo S4x64x640 (shapeCast S1x64x640 pt shapeCasts_S64x640_S1x64x640) broadcasts_S1x64x640_S4x64x640))
    (broadcastTo S4x64x640 (shapeCast S1x1x640 b1 shapeCasts_S640_S1x1x640) broadcasts_S1x1x640_S4x64x640))

/-- The logits of the 256 rows: the activations as 256 rows against the second weight matrix, plus the bias. -/
def logits (hid : FVec F S4x64x640 .f32) (w2 : Vec F S640x1024 .bf16) (b2 : FVec F S1024 .f32) : FVec F S256x1024 .f32 :=
  addf
    (matmul dot_S256x640_S640x1024_S256x1024_1_0_0_1_n_n none
      (shapeCast S256x640 (truncf .bf16 hid bitsLt_bf16_f32) shapeCasts_S4x64x640_S256x640)
      (shapeCast S640x1024 w2 shapeCasts_S640x1024_S640x1024) (constant S256x1024 .f32 0x00000000#32))
    (broadcastTo S256x1024 (shapeCast S1x1024 b2 shapeCasts_S1024_S1x1024) broadcasts_S1x1024_S256x1024)

/-- Each row minus its maximum. -/
def shifted (lg : FVec F S256x1024 .f32) : FVec F S256x1024 .f32 :=
  subf lg (broadcastTo S256x1024
    (shapeCast S256x1 (multiReduction .maximumf [1] S256 lg 0xFF800000#32 reduces_S256x1024_S256 (.inl rfl) rfl) shapeCasts_S256_S256x1)
    broadcasts_S256x1_S256x1024)

/-- The log-softmax of the 256 rows, as the [1, 4, 64, 1024] piece the body stores. -/
def logSoftmax (lg : FVec F S256x1024 .f32) : FVec F S1x4x64x1024 .f32 :=
  shapeCast S1x4x64x1024
    (shapeCast S4x64x1024
      (subf (shifted lg) (broadcastTo S256x1024
        (log (shapeCast S256x1
          (multiReduction .add [1] S256 (exp (shifted lg)) 0x00000000#32 reduces_S256x1024_S256 (.inl rfl) rfl) shapeCasts_S256_S256x1))
        broadcasts_S256x1_S256x1024))
      shapeCasts_S256x1024_S4x64x1024)
    shapeCasts_S4x64x1024_S1x4x64x1024

/-- The piece the body stores for the four frames from row `o`. -/
def piece (o : ℕ) (hs : S32x640.Slices ![o, 0] S4x640) (ps : FVec F S32x640 .f32) (pt : FVec F S64x640 .f32)
    (b1 : FVec F S640 .f32) (b2 : FVec F S1024 .f32) (w2 : Vec F S640x1024 .bf16) : FVec F S1x4x64x1024 .f32 :=
  logSoftmax (logits (hidden o hs ps pt b1) w2 b2)

end Stages

/-! ## The stages at an index, over the exact extended reals -/

/-- Row `64 · t + u` of the 256 rows. -/
def row (t : Fin 4) (u : Fin 64) : Fin 256 := ⟨t.val * 64 + u.val, by have := t.isLt; have := u.isLt; omega⟩

theorem hidden_apply (o : ℕ) (hs : S32x640.Slices ![o, 0] S4x640) (ps : FVec Ideal S32x640 .f32) (pt : FVec Ideal S64x640 .f32)
    (b1 : FVec Ideal S640 .f32) (t : Fin 4) (u : Fin 64) (q : Fin 640) (k : Fin 32) (hk : k.val = o + t.val) :
    hidden o hs ps pt b1 (ix3 t u q) = Ideal.tanh ((ps (ix2 k q) + pt (ix2 u q)) + b1 (ix1 q)) := by
  unfold hidden
  show Ideal.tanh (_ + _ + _) = _
  rw [broadcastTo_a1c_abc_apply _ _ t u q, shapeCast_ab_a1b_apply _ _ t 0 q, slice2_axis0_apply o ps hs t q k hk,
    broadcastTo_1bc_abc_apply _ _ t u q, shapeCast_ab_1ab_apply _ _ 0 u q,
    broadcastTo_11c_abc_apply _ _ t u q, shapeCast_c_11c_apply _ _ 0 0 q]

theorem logits_apply (hid : FVec Ideal S4x64x640 .f32) (w2 : Vec Ideal S640x1024 .bf16) (b2 : FVec Ideal S1024 .f32)
    (t : Fin 4) (u : Fin 64) (v : Fin 1024) :
    logits hid w2 b2 (ix2 (row t u) v) = (∑ q : Fin 640, hid (ix3 t u q) * w2 (ix2 q v)) + b2 (ix1 v) := by
  unfold logits
  rw [addf_apply]
  show FloatOps.matmul _ _ _ _ _ _ + _ = _
  rw [Cert.LibPlainDot.matmul_zero_apply dot_S256x640_S640x1024_S256x1024_1_0_0_1_n_n rfl none _ _ (row t u) v,
    broadcastTo_1b_ab_apply _ _ (row t u) v, shapeCast_a_1a_apply _ _ 0 v, shapeCast_self]
  refine congrArg (· + b2 (ix1 v)) (Finset.sum_congr rfl fun q _ => ?_)
  rw [shapeCast_abc_mc_apply _ _ t u q (row t u) rfl]
  rfl

theorem shifted_apply (lg : FVec Ideal S256x1024 .f32) (r : Fin 256) (v : Fin 1024) :
    shifted lg (ix2 r v) = lg (ix2 r v) - rowMax fun k => lg (ix2 r k) := by
  unfold shifted
  rw [subf_apply, broadcastTo_a1_ab_apply _ _ r v, shapeCast_a_a1_apply _ _ r 0]
  exact congrArg (lg (ix2 r v) - ·) (multiReduction_max_row lg _ reduces_S256x1024_S256 _ _ r)

theorem logSoftmax_apply (lg : FVec Ideal S256x1024 .f32) (t : Fin 4) (u : Fin 64) (v : Fin 1024) :
    logSoftmax lg (ix4 (0 : Fin 1) t u v) = logSoftmaxRow (fun k => lg (ix2 (row t u) k)) v := by
  unfold logSoftmax
  rw [shapeCast_abc_1abc_apply _ _ 0 t u v, shapeCast_mc_abc_apply _ _ t u v (row t u) rfl, subf_apply,
    broadcastTo_a1_ab_apply _ _ (row t u) v]
  show _ - Ideal.log _ = _
  rw [shapeCast_a_a1_apply _ _ (row t u) 0, shifted_apply]
  unfold logSoftmaxRow
  refine congrArg (fun s => _ - Ideal.log s)
    ((multiReduction_add_row (exp (shifted lg)) _ reduces_S256x1024_S256 _ _ (row t u)).trans (Finset.sum_congr rfl fun k _ => ?_))
  show Ideal.exp (shifted lg (ix2 (row t u) k)) = _
  rw [shifted_apply]

/-- An entry of the stored piece is an entry of the output row of the frame's and the position's projections. -/
theorem piece_apply (o : ℕ) (hs : S32x640.Slices ![o, 0] S4x640) (ps : FVec Ideal S32x640 .f32) (pt : FVec Ideal S64x640 .f32)
    (b1 : FVec Ideal S640 .f32) (b2 : FVec Ideal S1024 .f32) (w2 : Vec Ideal S640x1024 .bf16)
    (t : Fin 4) (u : Fin 64) (v : Fin 1024) (k : Fin 32) (hk : k.val = o + t.val) :
    piece o hs ps pt b1 b2 w2 (ix4 (0 : Fin 1) t u v)
      = outRow (fun q => ps (ix2 k q)) (fun q => pt (ix2 u q)) (fun q => b1 (ix1 q)) (fun q c => w2 (ix2 q c))
          (fun c => b2 (ix1 c)) v := by
  unfold piece
  rw [logSoftmax_apply]
  unfold outRow
  refine congrArg (logSoftmaxRow · v) (funext fun c => ?_)
  rw [logits_apply]
  unfold logitRow hiddenRow
  refine congrArg (· + b2 (ix1 c)) (Finset.sum_congr rfl fun q _ => ?_)
  rw [hidden_apply o hs ps pt b1 t u q k hk]

end Cert.KernelIdeal.Chunk

end
-- ==== Proof.JoinerBlock.lean ====
/-
  What one grid point leaves in the output block.

  The body stores eight pieces, one per group of four source frames; each is the chunk of JoinerChunk at rows 0, 4, …, 28
  of the point's source projection (the generated payload names cut the body's text at other places for each piece, but
  the text is the same). The source projection at (k, h) is the sum over the 512 features d of the source block at
  (0, k, d) times the first weight block at (d, h); the target projection likewise; the biases are the one-row blocks'
  rows. So the block, entry by entry, is Cert.Joiner.blockResult of the seven input blocks: at (0, t, u, v) the output row
  of source frame t and target position u at v.
-/
import proofs.«153883_j29824252903691_2_alg».proof.Proof.Gen.KernelIdeal.Frame
import proofs.«153883_j29824252903691_2_alg».proof.Proof.JoinerChunk

noncomputable section

open scoped BigOperators

namespace Cert.KernelIdeal.Block

open Cert.KernelIdeal Cert.KernelIdeal.Gen Cert.KernelIdeal.Chunk Idealize.ShloMosaic Idealize.ShloMosaic.ValueIdx Cert.Joiner

/-! ## The eight stored values are the chunk at offsets 0, 4, …, 28 -/

section Pieces
variable {F : FTy → Type} [FloatOps F]

theorem stored0 (v0 : Vec F S1x32x512 .bf16) (v2 : Vec F S512x640 .bf16) (v5 : Vec F S1x64x512 .bf16) (v7 : Vec F S512x640 .bf16) (v10 : Vec F S1x640 .f32) (v12 : Vec F S1x1024 .f32) (v26 : Vec F S640x1024 .bf16) :
    k0_pay8 (k0_pay6 v0 v2 v5 v7 v10 v12 v26) (k0_pay7 v0 v2 v5 v7 v10 v12 v26)
      = piece 0 slices_S32x640_o0_0_S4x640 (k0_pay2 v0 v2) (k0_pay3 v5 v7) (k0_pay4 v10) (k0_pay5 v12) v26 := rfl
theorem stored1 (v4 : FVec F S32x640 .f32) (v9 : FVec F S64x640 .f32) (v11 : FVec F S640 .f32) (v13 : FVec F S1024 .f32) (w : Vec F S640x1024 .bf16) :
    k0_pay9 v4 v9 v11 v13 w = piece 4 slices_S32x640_o4_0_S4x640 v4 v9 v11 v13 w := rfl
theorem stored2 (v4 : FVec F S32x640 .f32) (v9 : FVec F S64x640 .f32) (v11 : FVec F S640 .f32) (v13 : FVec F S1024 .f32) (w : Vec F S640x1024 .bf16) :
    k0_pay12 v11 v13 (k0_pay10 v9) (k0_pay11 v4) w = piece 8 slices_S32x640_o8_0_S4x640 v4 v9 v11 v13 w := rfl
theorem stored3 (v4 : FVec F S32x640 .f32) (v9 : FVec F S64x640 .f32) (v11 : FVec F S640 .f32) (v13 : FVec F S1024 .f32) (w : Vec F S640x1024 .bf16) :
    k0_pay14 (k0_pay13 v4 v9 v11 v13 w) = piece 12 slices_S32x640_o12_0_S4x640 v4 v9 v11 v13 w := rfl
theorem stored4 (v4 : FVec F S32x640 .f32) (v9 : FVec F S64x640 .f32) (v11 : FVec F S640 .f32) (v13 : FVec F S1024 .f32) (w : Vec F S640x1024 .bf16) :
    k0_pay16 (k0_pay15 v4 v9 v11 v13 w) = piece 16 slices_S32x640_o16_0_S4x640 v4 v9 v11 v13 w := rfl
theorem stored5 (v4 : FVec F S32x640 .f32) (v9 : FVec F S64x640 .f32) (v11 : FVec F S640 .f32) (v13 : FVec F S1024 .f32) (w : Vec F S640x1024 .bf16) :
    k0_pay17 v4 v9 v11 v13 w = piece 20 slices_S32x640_o20_0_S4x640 v4 v9 v11 v13 w := rfl
theorem stored6 (v4 : FVec F S32x640 .f32) (v9 : FVec F S64x640 .f32) (v11 : FVec F S640 .f32) (v13 : FVec F S1024 .f32) (w : Vec F S640x1024 .bf16) :
    k0_pay20 v13 (k0_pay18 v4 v9 v11) (k0_pay19 w) = piece 24 slices_S32x640_o24_0_S4x640 v4 v9 v11 v13 w := rfl
theorem stored7 (v4 : FVec F S32x640 .f32) (v9 : FVec F S64x640 .f32) (v11 : FVec F S640 .f32) (v13 : FVec F S1024 .f32) (w : Vec F S640x1024 .bf16) :
    k0_pay1 (k0_pay21 v4 v9 v11 v13 w) = piece 28 slices_S32x640_o28_0_S4x640 v4 v9 v11 v13 w := rfl

end Pieces

/-! ## The projections and the bias rows at an index -/

/-- The source projection at (k, h): the sum over the features of the source block's frame k against column h. -/
theorem srcProj_apply (v0 : Vec Ideal S1x32x512 .bf16) (v2 : Vec Ideal S512x640 .bf16) (k : Fin 32) (h : Fin 640) :
    k0_pay2 v0 v2 (ix2 k h) = ∑ d : Fin 512, v0 (ix3 (0 : Fin 1) k d) * v2 (ix2 d h) := by
  unfold k0_pay2
  show FloatOps.matmul _ _ _ _ _ _ = _
  rw [Cert.LibPlainDot.matmul_zero_apply dot_S32x512_S512x640_S32x640_1_0_0_1_n_n rfl none _ _ k h, shapeCast_self]
  exact Finset.sum_congr rfl fun d _ => congrArg (· * v2 (ix2 d h)) (shapeCast_1ab_ab_apply v0 _ k d)

/-- The target projection at (u, h). -/
theorem tgtProj_apply (v5 : Vec Ideal S1x64x512 .bf16) (v7 : Vec Ideal S512x640 .bf16) (u : Fin 64) (h : Fin 640) :
    k0_pay3 v5 v7 (ix2 u h) = ∑ d : Fin 512, v5 (ix3 (0 : Fin 1) u d) * v7 (ix2 d h) := by
  unfold k0_pay3
  show FloatOps.matmul _ _ _ _ _ _ = _
  rw [Cert.LibPlainDot.matmul_zero_apply dot_S64x512_S512x640_S64x640_1_0_0_1_n_n rfl none _ _ u h, shapeCast_self]
  exact Finset.sum_congr rfl fun d _ => congrArg (· * v7 (ix2 d h)) (shapeCast_1ab_ab_apply v5 _ u d)

theorem bias1_apply (v10 : Vec Ideal S1x640 .f32) (h : Fin 640) : k0_pay4 v10 (ix1 h) = v10 (ix2 (0 : Fin 1) h) := by
  unfold k0_pay4
  exact shapeCast_1a_a_apply v10 _ h

theorem bias2_apply (v12 : Vec Ideal S1x1024 .f32) (c : Fin 1024) : k0_pay5 v12 (ix1 c) = v12 (ix2 (0 : Fin 1) c) := by
  unfold k0_pay5
  exact shapeCast_1a_a_apply v12 _ c

/-! ## The block -/

theorem hz3 : (![0, 0, 0] : Fin 3 → Nat) = fun _ => 0 := funext fun a => by fin_cases a <;> rfl
theorem hz2 : (![0, 0] : Fin 2 → Nat) = fun _ => 0 := funext fun a => by fin_cases a <;> rfl

/-- The chunk at offset `o`, over the point's blocks, is rows o … o + 3 of `blockResult`: its entry x is the block's
    entry under x in the rectangle [0, o, 0, 0] + [1, 4, 64, 1024]. -/
theorem piece_block (o : ℕ) (ho : o + 4 ≤ 32) (hs : S32x640.Slices ![o, 0] S4x640)
    (inb : ∀ a, (![0, o, 0, 0] : Fin 4 → Nat) a + S1x4x64x1024.size a ≤ S1x32x64x1024.size a)
    (x0 : Vec Ideal S1x32x512 .bf16) (x1 : Vec Ideal S1x64x512 .bf16) (x2 : Vec Ideal S512x640 .bf16) (x3 : Vec Ideal S512x640 .bf16)
    (x4 : Vec Ideal S1x640 .f32) (x5 : Vec Ideal S640x1024 .bf16) (x6 : Vec Ideal S1x1024 .f32) (x : S1x4x64x1024.Idx) :
    piece o hs (k0_pay2 (View.ld x0 r0_0) (View.ld x2 r0_1)) (k0_pay3 (View.ld x1 r0_2) (View.ld x3 r0_1))
        (k0_pay4 (View.ld x4 r0_3)) (k0_pay5 (View.ld x6 r0_4)) (View.ld x5 r0_5) x
      = blockResult x0 x1 x2 x3 x4 x5 x6 ((Rect.unit (s := S1x32x64x1024) ![0, o, 0, 0] S1x4x64x1024.size inb).emb x) := by
  obtain ⟨w, t, u, v, rfl⟩ : ∃ (w : Fin 1) (t : Fin 4) (u : Fin 64) (v : Fin 1024), x = ix4 w t u v :=
    ⟨x 0, x 1, x 2, x 3, eq_ix4 x⟩
  obtain rfl : w = 0 := Subsingleton.elim _ _
  have ht := t.isLt
  rw [View.ld_unit_zero (S := S640x1024) hz2 _ x5, piece_apply o hs _ _ _ _ _ t u v ⟨o + t.val, by omega⟩ rfl]
  unfold blockResult
  have e1 : (Rect.unit (s := S1x32x64x1024) ![0, o, 0, 0] S1x4x64x1024.size inb).emb (ix4 (0 : Fin 1) t u v) 1
      = (⟨o + t.val, by omega⟩ : Fin 32) := Fin.ext (by show o + 1 * t.val = o + t.val; omega)
  have e2 : (Rect.unit (s := S1x32x64x1024) ![0, o, 0, 0] S1x4x64x1024.size inb).emb (ix4 (0 : Fin 1) t u v) 2 = u :=
    Fin.ext (by show 0 + 1 * u.val = u.val; omega)
  have e3 : (Rect.unit (s := S1x32x64x1024) ![0, o, 0, 0] S1x4x64x1024.size inb).emb (ix4 (0 : Fin 1) t u v) 3 = v :=
    Fin.ext (by show 0 + 1 * v.val = v.val; omega)
  rw [e1, e2, e3]
  simp only [srcProj_apply, tgtProj_apply, bias1_apply, bias2_apply, View.ld_unit_zero (S := S1x32x512) hz3,
    View.ld_unit_zero (S := S1x64x512) hz3, View.ld_unit_zero (S := S512x640) hz2, View.ld_unit_zero (S := S1x640) hz2,
    View.ld_unit_zero (S := S1x1024) hz2, View.ld_unit_zero (S := S640x1024) hz2]

/-- WHAT THE BODY LEAVES in the output block: `blockResult` of the seven input blocks. -/
theorem out_eq (x0 : Vec Ideal S1x32x512 .bf16) (x1 : Vec Ideal S1x64x512 .bf16) (x2 : Vec Ideal S512x640 .bf16)
    (x3 : Vec Ideal S512x640 .bf16) (x4 : Vec Ideal S1x640 .f32) (x5 : Vec Ideal S640x1024 .bf16) (x6 : Vec Ideal S1x1024 .f32) :
    out0_7 x0 x1 x2 x3 x4 x5 x6 = blockResult x0 x1 x2 x3 x4 x5 x6 := by
  funext y
  unfold out0_7
  refine View.canon_apply_of_pieces (Val := Elt Ideal) (S := S1x32x64x1024) (e := .f32) (blockResult x0 x1 x2 x3 x4 x5 x6) _ ?_ y
    (cover0_7 _ _ _ _ _ _ _ _ y)
  intro p hp x
  simp only [List.mem_cons, List.not_mem_nil, or_false] at hp
  rcases hp with rfl | rfl | rfl | rfl | rfl | rfl | rfl | rfl
  · exact (congrFun (stored7 _ _ _ _ _) x).trans (piece_block 28 (by omega) slices_S32x640_o28_0_S4x640 inb_S1x32x64x1024_S1x4x64x1024_0_28_0_0 x0 x1 x2 x3 x4 x5 x6 x)
  · exact (congrFun (stored6 _ _ _ _ _) x).trans (piece_block 24 (by omega) slices_S32x640_o24_0_S4x640 inb_S1x32x64x1024_S1x4x64x1024_0_24_0_0 x0 x1 x2 x3 x4 x5 x6 x)
  · exact (congrFun (stored5 _ _ _ _ _) x).trans (piece_block 20 (by omega) slices_S32x640_o20_0_S4x640 inb_S1x32x64x1024_S1x4x64x1024_0_20_0_0 x0 x1 x2 x3 x4 x5 x6 x)
  · exact (congrFun (stored4 _ _ _ _ _) x).trans (piece_block 16 (by omega) slices_S32x640_o16_0_S4x640 inb_S1x32x64x1024_S1x4x64x1024_0_16_0_0 x0 x1 x2 x3 x4 x5 x6 x)
  · exact (congrFun (stored3 _ _ _ _ _) x).trans (piece_block 12 (by omega) slices_S32x640_o12_0_S4x640 inb_S1x32x64x1024_S1x4x64x1024_0_12_0_0 x0 x1 x2 x3 x4 x5 x6 x)
  · exact (congrFun (stored2 _ _ _ _ _) x).trans (piece_block 8 (by omega) slices_S32x640_o8_0_S4x640 inb_S1x32x64x1024_S1x4x64x1024_0_8_0_0 x0 x1 x2 x3 x4 x5 x6 x)
  · exact (congrFun (stored1 _ _ _ _ _) x).trans (piece_block 4 (by omega) slices_S32x640_o4_0_S4x640 inb_S1x32x64x1024_S1x4x64x1024_0_4_0_0 x0 x1 x2 x3 x4 x5 x6 x)
  · exact (congrFun (stored0 _ _ _ _ _ _ _) x).trans (piece_block 0 (by omega) slices_S32x640_o0_0_S4x640 inb_S1x32x64x1024_S1x4x64x1024_0_0_0_0 x0 x1 x2 x3 x4 x5 x6 x)

end Cert.KernelIdeal.Block

end
-- ==== Proof.JoinerArray.lean ====
/-
  The output array after the run.

  Before the region the host narrows the source and target encodings and the second weight matrix to bf16 (the identity on
  the exact extended reals), cuts the first weight matrix into its upper and lower 512 rows, and views each bias as a
  one-row matrix. Grid point (b, j) stages batch b's source frames 32j … 32j + 31, batch b's target positions, both halves
  of the first weight matrix, the biases and the second weight matrix whole, and writes back block (b, j) of the output:
  frames 32j … 32j + 31 of batch b. What it writes back is Cert.Joiner.blockResult of those blocks (JoinerBlock), which is
  that block of Cert.Joiner.result of the six argument arrays: the projections' sums run over the same 512 features, the
  rows of the weight halves are rows d and 512 + d of the whole matrix. The sixteen blocks tile the array, so the array
  ends holding `result` of the arguments, whatever order the points ran in.
-/
import proofs.«153883_j29824252903691_2_alg».proof.Proof.Gen.KernelIdeal.Value
import proofs.«153883_j29824252903691_2_alg».proof.Proof.JoinerBlock
import Idealize.ShloMosaic.Lib.StableHlo.Run

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx Idealize.ShloMosaic.StableHlo Cert.Joiner
open Idealize.ShloMosaic.Pipeline (Dat)

variable (m : (ℓ : Loc nD τ sig) → Buf (Elt Ideal) ℓ) (ρ : Dev nD → PrngReg)

/-- The array the output ends holding: `result` of the six float arguments as launched. -/
def resultArr (c : Dev nD) : S4x128x64x1024.Idx → EReal :=
  result (m ((c : Thread nD τ).loc main_arg0)) (m ((c : Thread nD τ).loc main_arg2)) (m ((c : Thread nD τ).loc main_arg4))
    (m ((c : Thread nD τ).loc main_arg5)) (m ((c : Thread nD τ).loc main_arg6)) (m ((c : Thread nD τ).loc main_arg7))

/-! ## The arrays the region finds, at an index -/

theorem V_v0 (c : Dev nD) : (V m c main_v0 : S4x128x512.Idx → EReal) = m ((c : Thread nD τ).loc main_arg0) := by
  dsimp only [Gen.V, Gen.hostOps0]; after_results; rfl

theorem V_v1 (c : Dev nD) : (V m c main_v1 : S4x64x512.Idx → EReal) = m ((c : Thread nD τ).loc main_arg2) := by
  dsimp only [Gen.V, Gen.hostOps0]; after_results; rfl

theorem V_v6 (c : Dev nD) : (V m c main_v6 : S640x1024.Idx → EReal) = m ((c : Thread nD τ).loc main_arg6) := by
  dsimp only [Gen.V, Gen.hostOps0]; after_results; rfl

theorem V_v3_apply (c : Dev nD) (d : Fin 512) (h : Fin 640) :
    (V m c main_v3 : S512x640.Idx → EReal) (ix2 d h) = (m ((c : Thread nD τ).loc main_arg4) : S1024x640.Idx → EReal) (ix2 (rowLo d) h) := by
  have e : (V m c main_v3 : S512x640.Idx → EReal)
      = extractStridedSlice S512x640 ![0, 0] (m ((c : Thread nD τ).loc main_arg4)) slices_S1024x640_S512x640_0_0 := by
    dsimp only [Gen.V, Gen.hostOps0]; after_results; rfl
  rw [e]
  exact slice2_axis0_apply 0 _ _ d h (rowLo d) (by show d.val = 0 + d.val; omega)

theorem V_v5_apply (c : Dev nD) (d : Fin 512) (h : Fin 640) :
    (V m c main_v5 : S512x640.Idx → EReal) (ix2 d h) = (m ((c : Thread nD τ).loc main_arg4) : S1024x640.Idx → EReal) (ix2 (rowHi d) h) := by
  have e : (V m c main_v5 : S512x640.Idx → EReal)
      = extractStridedSlice S512x640 ![512, 0] (m ((c : Thread nD τ).loc main_arg4)) slices_S1024x640_S512x640_512_0 := by
    dsimp only [Gen.V, Gen.hostOps0]; after_results; rfl
  rw [e]
  exact slice2_axis0_apply 512 _ _ d h (rowHi d) rfl

theorem V_v7_apply (c : Dev nD) (u : Fin 1) (h : Fin 640) :
    (V m c main_v7 : S1x640.Idx → EReal) (ix2 u h) = (m ((c : Thread nD τ).loc main_arg5) : S640.Idx → EReal) (ix1 h) := by
  have e : (V m c main_v7 : S1x640.Idx → EReal) = shapeCast S1x640 (m ((c : Thread nD τ).loc main_arg5)) shapeCasts_S640_S1x640 := by
    dsimp only [Gen.V, Gen.hostOps0]; after_results; rfl
  rw [e]
  exact shapeCast_a_1a_apply _ _ u h

theorem V_v8_apply (c : Dev nD) (u : Fin 1) (v : Fin 1024) :
    (V m c main_v8 : S1x1024.Idx → EReal) (ix2 u v) = (m ((c : Thread nD τ).loc main_arg7) : S1024.Idx → EReal) (ix1 v) := by
  have e : (V m c main_v8 : S1x1024.Idx → EReal) = shapeCast S1x1024 (m ((c : Thread nD τ).loc main_arg7)) shapeCasts_S1024_S1x1024 := by
    dsimp only [Gen.V, Gen.hostOps0]; after_results; rfl
  rw [e]
  exact shapeCast_a_1a_apply _ _ u v

/-! ## The index maps over the grid -/

/-- The printed index maps, decided over the sixteen points: the source window moves with the output on the batch and
    frame-tile axes, the target window on the batch axis, every other window stays at block zero. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (2 : Fin 4) = 0 ∧ win0_7.index t (3 : Fin 4) = 0
    ∧ win0_7.index t (0 : Fin 4) ≤ 3 ∧ win0_7.index t (1 : Fin 4) ≤ 3 :=
  (by decide +kernel : ∀ t : Fin grid0.N, _)

/-- Every block of the output is some point's. -/
theorem idx_onto : ∀ (q0 : Fin 4) (q1 : Fin 4), ∃ t : Fin cfg0.N, win0_7.index t = ![q0.val, q1.val, 0, 0] :=
  (by decide +kernel : ∀ (q0 : Fin 4) (q1 : Fin 4), ∃ t : Fin grid0.N, win0_7.index t = ![q0.val, q1.val, 0, 0])

/-! ## Each window's block at a point, as a piece of an argument array -/

section Blocks
variable (c : Dev nD) (t : Fin cfg0.N)

theorem blk0_apply (k : Fin 32) (d : Fin 512) (i0 : Fin 4) (i1 : Fin 128) (h0 : i0.val = win0_0.index t (0 : Fin 3))
    (h1 : i1.val = win0_0.index t (1 : Fin 3) * 32 + k.val) (h2 : win0_0.index t (2 : Fin 3) = 0) :
    iblk m c 0 t (ix3 (0 : Fin 1) k d) = (m ((c : Thread nD τ).loc main_arg0) : S4x128x512.Idx → EReal) (ix3 i0 i1 d) := by
  show (V m c main_v0 : S4x128x512.Idx → EReal) (((cfg0.win 0).blk t).view.emb (ix3 (0 : Fin 1) k d)) = _
  rw [V_v0]
  refine congrArg _ (funext fun a => Fin.ext ?_)
  match a with
  | ⟨0, _⟩ => show win0_0.index t (0 : Fin 3) * 1 + 1 * 0 = i0.val; omega
  | ⟨1, _⟩ => show win0_0.index t (1 : Fin 3) * 32 + 1 * k.val = i1.val; omega
  | ⟨2, _⟩ => show win0_0.index t (2 : Fin 3) * 512 + 1 * d.val = d.val; omega

theorem blk1_apply (u : Fin 64) (d : Fin 512) (i0 : Fin 4) (h0 : i0.val = win0_1.index t (0 : Fin 3))
    (h1 : win0_1.index t (1 : Fin 3) = 0) (h2 : win0_1.index t (2 : Fin 3) = 0) :
    iblk m c 1 t (ix3 (0 : Fin 1) u d) = (m ((c : Thread nD τ).loc main_arg2) : S4x64x512.Idx → EReal) (ix3 i0 u d) := by
  show (V m c main_v1 : S4x64x512.Idx → EReal) (((cfg0.win 1).blk t).view.emb (ix3 (0 : Fin 1) u d)) = _
  rw [V_v1]
  refine congrArg _ (funext fun a => Fin.ext ?_)
  match a with
  | ⟨0, _⟩ => show win0_1.index t (0 : Fin 3) * 1 + 1 * 0 = i0.val; omega
  | ⟨1, _⟩ => show win0_1.index t (1 : Fin 3) * 64 + 1 * u.val = u.val; omega
  | ⟨2, _⟩ => show win0_1.index t (2 : Fin 3) * 512 + 1 * d.val = d.val; omega

theorem blk2_apply (d : Fin 512) (h : Fin 640) (h0 : win0_2.index t (0 : Fin 2) = 0) (h1 : win0_2.index t (1 : Fin 2) = 0) :
    iblk m c 2 t (ix2 d h) = (m ((c : Thread nD τ).loc main_arg4) : S1024x640.Idx → EReal) (ix2 (rowLo d) h) := by
  show (V m c main_v3 : S512x640.Idx → EReal) (((cfg0.win 2).blk t).view.emb (ix2 d h)) = _
  rw [← V_v3_apply m c d h]
  refine congrArg _ (funext fun a => Fin.ext ?_)
  match a with
  | ⟨0, _⟩ => show win0_2.index t (0 : Fin 2) * 512 + 1 * d.val = d.val; omega
  | ⟨1, _⟩ => show win0_2.index t (1 : Fin 2) * 640 + 1 * h.val = h.val; omega

theorem blk3_apply (d : Fin 512) (h : Fin 640) (h0 : win0_3.index t (0 : Fin 2) = 0) (h1 : win0_3.index t (1 : Fin 2) = 0) :
    iblk m c 3 t (ix2 d h) = (m ((c : Thread nD τ).loc main_arg4) : S1024x640.Idx → EReal) (ix2 (rowHi d) h) := by
  show (V m c main_v5 : S512x640.Idx → EReal) (((cfg0.win 3).blk t).view.emb (ix2 d h)) = _
  rw [← V_v5_apply m c d h]
  refine congrArg _ (funext fun a => Fin.ext ?_)
  match a with
  | ⟨0, _⟩ => show win0_3.index t (0 : Fin 2) * 512 + 1 * d.val = d.val; omega
  | ⟨1, _⟩ => show win0_3.index t (1 : Fin 2) * 640 + 1 * h.val = h.val; omega

theorem blk4_apply (h : Fin 640) (h0 : win0_4.index t (0 : Fin 2) = 0) (h1 : win0_4.index t (1 : Fin 2) = 0) :
    iblk m c 4 t (ix2 (0 : Fin 1) h) = (m ((c : Thread nD τ).loc main_arg5) : S640.Idx → EReal) (ix1 h) := by
  show (V m c main_v7 : S1x640.Idx → EReal) (((cfg0.win 4).blk t).view.emb (ix2 (0 : Fin 1) h)) = _
  rw [← V_v7_apply m c 0 h]
  refine congrArg _ (funext fun a => Fin.ext ?_)
  match a with
  | ⟨0, _⟩ => show win0_4.index t (0 : Fin 2) * 1 + 1 * 0 = 0; omega
  | ⟨1, _⟩ => show win0_4.index t (1 : Fin 2) * 640 + 1 * h.val = h.val; omega

theorem blk5_apply (h : Fin 640) (v : Fin 1024) (h0 : win0_5.index t (0 : Fin 2) = 0) (h1 : win0_5.index t (1 : Fin 2) = 0) :
    iblk m c 5 t (ix2 h v) = (m ((c : Thread nD τ).loc main_arg6) : S640x1024.Idx → EReal) (ix2 h v) := by
  show (V m c main_v6 : S640x1024.Idx → EReal) (((cfg0.win 5).blk t).view.emb (ix2 h v)) = _
  rw [V_v6]
  refine congrArg _ (funext fun a => Fin.ext ?_)
  match a with
  | ⟨0, _⟩ => show win0_5.index t (0 : Fin 2) * 640 + 1 * h.val = h.val; omega
  | ⟨1, _⟩ => show win0_5.index t (1 : Fin 2) * 1024 + 1 * v.val = v.val; omega

theorem blk6_apply (v : Fin 1024) (h0 : win0_6.index t (0 : Fin 2) = 0) (h1 : win0_6.index t (1 : Fin 2) = 0) :
    iblk m c 6 t (ix2 (0 : Fin 1) v) = (m ((c : Thread nD τ).loc main_arg7) : S1024.Idx → EReal) (ix1 v) := by
  show (V m c main_v8 : S1x1024.Idx → EReal) (((cfg0.win 6).blk t).view.emb (ix2 (0 : Fin 1) v)) = _
  rw [← V_v8_apply m c 0 v]
  refine congrArg _ (funext fun a => Fin.ext ?_)
  match a with
  | ⟨0, _⟩ => show win0_6.index t (0 : Fin 2) * 1 + 1 * 0 = 0; omega
  | ⟨1, _⟩ => show win0_6.index t (1 : Fin 2) * 1024 + 1 * v.val = v.val; omega

end Blocks

/-! ## What a point writes back, the cover, and the array -/

/-- WHAT POINT `t` WRITES BACK is block `t` of `result` of the argument arrays. -/
theorem flushed_eq (c : Dev nD) (t : Fin cfg0.N) :
    (dats m 0 c).flushed 7 t = ((cfg0.win 7).blk t).view.read (Elt Ideal) (resultArr m c) := by
  have hb := Cert.KernelIdeal.Block.out_eq (iblk m c 0 t) (iblk m c 1 t) (iblk m c 2 t) (iblk m c 3 t) (iblk m c 4 t)
    (iblk m c 5 t) (iblk m c 6 t)
  rw [Value.flushed7, hb]
  obtain ⟨f00, f01, f02, f10, f11, f12, f20, f21, f30, f31, f40, f41, f50, f51, f60, f61, f72, f73, f7a, f7b⟩ := idx_facts t
  funext j
  obtain ⟨w, k, u, v, rfl⟩ : ∃ (w : Fin 1) (k : Fin 32) (u : Fin 64) (v : Fin 1024), j = ix4 w k u v :=
    ⟨j 0, j 1, j 2, j 3, eq_ix4 j⟩
  obtain rfl : w = 0 := Subsingleton.elim _ _
  have hk := k.isLt
  have hi0 : win0_7.index t (0 : Fin 4) < 4 := by omega
  have hi1 : win0_7.index t (1 : Fin 4) * 32 + k.val < 128 := by omega
  show blockResult (iblk m c 0 t) (iblk m c 1 t) (iblk m c 2 t) (iblk m c 3 t) (iblk m c 4 t) (iblk m c 5 t) (iblk m c 6 t)
      (ix4 (0 : Fin 1) k u v) = resultArr m c (((cfg0.win 7).blk t).view.emb (ix4 (0 : Fin 1) k u v))
  have e : ((cfg0.win 7).blk t).view.emb (ix4 (0 : Fin 1) k u v)
      = (ix4 (⟨win0_7.index t (0 : Fin 4), hi0⟩ : Fin 4) (⟨win0_7.index t (1 : Fin 4) * 32 + k.val, hi1⟩ : Fin 128) u v : S4x128x64x1024.Idx) :=
    funext fun a => Fin.ext (by
      match a with
      | ⟨0, _⟩ => show win0_7.index t (0 : Fin 4) * 1 + 1 * 0 = win0_7.index t (0 : Fin 4); omega
      | ⟨1, _⟩ => show win0_7.index t (1 : Fin 4) * 32 + 1 * k.val = win0_7.index t (1 : Fin 4) * 32 + k.val; omega
      | ⟨2, _⟩ => show win0_7.index t (2 : Fin 4) * 64 + 1 * u.val = u.val; omega
      | ⟨3, _⟩ => show win0_7.index t (3 : Fin 4) * 1024 + 1 * v.val = v.val; omega)
  rw [e]
  unfold blockResult resultArr result
  show outRow _ _ _ _ _ v = outRow _ _ _ _ _ v
  congr 1
  · funext h
    refine Finset.sum_congr rfl fun d _ => ?_
    rw [blk0_apply m c t k d ⟨win0_7.index t (0 : Fin 4), hi0⟩ ⟨win0_7.index t (1 : Fin 4) * 32 + k.val, hi1⟩ f00.symm
      (congrArg (· * 32 + k.val) f01.symm) f02, blk2_apply m c t d h f20 f21]
  · funext h
    refine Finset.sum_congr rfl fun d _ => ?_
    rw [blk1_apply m c t u d ⟨win0_7.index t (0 : Fin 4), hi0⟩ f10.symm f11 f12, blk3_apply m c t d h f30 f31]
  · funext h
    exact blk4_apply m c t h f40 f41
  · funext h v'
    exact blk5_apply m c t h v' f50 f51
  · funext v'
    exact blk6_apply m c t v' f60 f61

/-- An index of the array is in point `t`'s block iff each coordinate is in the block's range on its axis. -/
theorem mem_blk (t : Fin cfg0.N) (i : S4x128x64x1024.Idx) :
    i ∈ ((cfg0.win 7).blk t).view.set ↔ ∀ a : Fin 4, win0_7.index t a * S1x32x64x1024.size a ≤ (i a).val
      ∧ (i a).val < win0_7.index t a * S1x32x64x1024.size a + S1x32x64x1024.size a := by
  show i ∈ ((View.whole main_v9).slice (win0_7.rect t)).set ↔ _
  rw [View.set_slice_whole, Rect.mem_set_unit]
  exact Iff.rfl

/-- The sixteen blocks tile the array: frame r of batch b is in the block of point (b, r / 32). -/
theorem cover (i : S4x128x64x1024.Idx) : ∃ t : Fin cfg0.N, (cfg0.win 7).flush t = true ∧ i ∈ ((cfg0.win 7).blk t).view.set := by
  have h0 : (i 0).val < 4 := (i 0).isLt
  have h1 : (i 1).val < 128 := (i 1).isLt
  have h2 : (i 2).val < 64 := (i 2).isLt
  have h3 : (i 3).val < 1024 := (i 3).isLt
  obtain ⟨t, ht⟩ := idx_onto ⟨(i 0).val, h0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- THE ARRAY after the run: `result` of the argument arrays. -/
theorem final (c : Dev nD) : (dats m 0 c).arrAt 7 cfg0.N = resultArr m c :=
  (dats m 0 c).arrAt_eq_of_cover 7 (resultArr m c) (fun t _ => flushed_eq m c t) cover

/-- The kernel's run: the output array at `result` of the arguments, the arguments unchanged. -/
theorem run : θ_run defs (onTc (τ := τ) (main (F := Ideal))) ⟨m, fun _ => 0, ρ⟩ fun r => ∀ c : Dev nD,
      r.2.mem ((c : Thread nD τ).loc main_v9) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Array

end
-- ==== Proof.JoinerReference.lean ====
/-
  The reference computes `result`.

  Its stages, read one at a time (the repaired copy of the generated read-at-an-index module): the two projections are
  dot products over the 512 features against the upper and the lower 512 rows of the first weight matrix; broadcasts carry
  them and the first bias to (b, t, u, h); the hidden row is tanh of their sum, grouped (ps + pt) + b1; the logits are its
  dot product over the 640 hidden units with the second weight matrix, plus the second bias; the row maximum is a
  max-reduce from minus infinity, against which jax's log_softmax takes one more maximum with minus infinity — the identity,
  minus infinity being the least extended real —; and the host's sum of the exponentials starts from the zero word, which
  adds nothing. So at (b, t, u, v) the result is entry v of Cert.Joiner.outRow of the rows of source frame (b, t) and target
  position (b, u): Cert.Joiner.result.
-/
import proofs.«153883_j29824252903691_2_alg».proof.Proof.ReferenceRead
import proofs.«153883_j29824252903691_2_alg».proof.Proof.JoinerSpec
import Idealize.ShloMosaic.Lib.ValueIdx
import Idealize.ShloMosaic.PureOps.Ideal.Laws

noncomputable section

open scoped BigOperators

namespace Cert.ReferenceIdeal.Joiner

open Cert.ReferenceIdeal Cert.ReferenceIdeal.Gen Cert.ReferenceIdeal.ReadP Idealize.ShloMosaic Idealize.ShloMosaic.ValueIdx Cert.Joiner

/-! ## The composed index maps, by coordinates -/

section Indices
variable (b : Fin 4) (t : Fin 128) (u : Fin 64) (h : Fin 640) (v : Fin 1024) (d : Fin 512) (k : Fin 640) (c : Fin 1024)

theorem e_src : idx_main_v4 (idx_main_v6 (ix4 b t u h)) = ix3 b t h :=
  funext fun a => Fin.ext (by match a with | ⟨0, _⟩ => rfl | ⟨1, _⟩ => rfl | ⟨2, _⟩ => rfl)
theorem e_src_l : lidx_main_v2 (ix3 b t h) d = ix3 b t d :=
  funext fun a => Fin.ext (by match a with | ⟨0, _⟩ => rfl | ⟨1, _⟩ => rfl | ⟨2, _⟩ => rfl)
theorem e_src_r : idx_main_v0 (ridx_main_v2 (ix3 b t h) d) = ix2 (rowLo d) h :=
  funext fun a => Fin.ext (by match a with | ⟨0, _⟩ => rfl | ⟨1, _⟩ => rfl)
theorem e_tgt : idx_main_v5 (idx_main_v7 (ix4 b t u h)) = ix3 b u h :=
  funext fun a => Fin.ext (by match a with | ⟨0, _⟩ => rfl | ⟨1, _⟩ => rfl | ⟨2, _⟩ => rfl)
theorem e_tgt_l : lidx_main_v3 (ix3 b u h) d = ix3 b u d :=
  funext fun a => Fin.ext (by match a with | ⟨0, _⟩ => rfl | ⟨1, _⟩ => rfl | ⟨2, _⟩ => rfl)
theorem e_tgt_r : idx_main_v1 (ridx_main_v3 (ix3 b u h) d) = ix2 (rowHi d) h :=
  funext fun a => Fin.ext (by match a with | ⟨0, _⟩ => rfl | ⟨1, _⟩ => rfl)
theorem e_b1 : idx_main_v9 (idx_main_v10 (ix4 b t u h)) = ix1 h :=
  funext fun a => Fin.ext (by match a with | ⟨0, _⟩ => rfl)
theorem e_hid : lidx_main_v13 (ix4 b t u v) k = ix4 b t u k :=
  funext fun a => Fin.ext (by match a with | ⟨0, _⟩ => rfl | ⟨1, _⟩ => rfl | ⟨2, _⟩ => rfl | ⟨3, _⟩ => rfl)
theorem e_w2 : ridx_main_v13 (ix4 b t u v) k = ix2 k v :=
  funext fun a => Fin.ext (by match a with | ⟨0, _⟩ => rfl | ⟨1, _⟩ => rfl)
theorem e_b2 : idx_main_v14 (idx_main_v15 (ix4 b t u v)) = ix1 v :=
  funext fun a => Fin.ext (by match a with | ⟨0, _⟩ => rfl)
theorem e_max : idx_main_call0_v3 (idx_main_call0_v4 (ix4 b t u v)) = ix3 b t u :=
  funext fun a => Fin.ext (by match a with | ⟨0, _⟩ => rfl | ⟨1, _⟩ => rfl | ⟨2, _⟩ => rfl)
theorem e_lse : idx_main_call0_v8 (idx_main_call0_v10 (ix4 b t u v)) = ix3 b t u :=
  funext fun a => Fin.ext (by match a with | ⟨0, _⟩ => rfl | ⟨1, _⟩ => rfl | ⟨2, _⟩ => rfl)
theorem e_sum : idx_main_call0_v7 (ix3 b t u) c = ix4 b t u c :=
  funext fun a => Fin.ext (by match a with | ⟨0, _⟩ => rfl | ⟨1, _⟩ => rfl | ⟨2, _⟩ => rfl | ⟨3, _⟩ => rfl)
theorem e_lift (hR : S4x128x64x1024.Reduces [(3 : Fin 4)] S4x128x64) : hR.lift (ix3 b t u) c = ix4 b t u c :=
  funext fun a => Fin.ext (by match a with | ⟨0, _⟩ => rfl | ⟨1, _⟩ => rfl | ⟨2, _⟩ => rfl | ⟨3, _⟩ => rfl)

end Indices

/-! ## The stages at coordinates -/

section Stages
variable (x0 : (⟨S4x128x512, .f32⟩ : BufTy).Contents (Elt Ideal)) (x2 : (⟨S4x64x512, .f32⟩ : BufTy).Contents (Elt Ideal))
  (x4 : (⟨S1024x640, .f32⟩ : BufTy).Contents (Elt Ideal)) (x5 : (⟨S640, .f32⟩ : BufTy).Contents (Elt Ideal))
  (x6 : (⟨S640x1024, .f32⟩ : BufTy).Contents (Elt Ideal)) (x7 : (⟨S1024, .f32⟩ : BufTy).Contents (Elt Ideal))
variable (b : Fin 4) (t : Fin 128) (u : Fin 64)

/-- The source frame's projection row. -/
def srcRow : Fin 640 → EReal := fun h => ∑ d : Fin 512, x0 (ix3 b t d) * x4 (ix2 (rowLo d) h)
/-- The target position's projection row. -/
def tgtRow : Fin 640 → EReal := fun h => ∑ d : Fin 512, x2 (ix3 b u d) * x4 (ix2 (rowHi d) h)

theorem hidden_at (h : Fin 640) :
    val_main_v12 (F := Ideal) x0 x2 x4 x5 (ix4 b t u h)
      = hiddenRow (srcRow x0 x4 b t) (tgtRow x2 x4 b u) (fun q => x5 (ix1 q)) h := by
  rw [val_main_v12_apply, val_main_v11_apply, val_main_v8_apply, val_main_v6_apply, val_main_v4_apply, e_src,
    val_main_v2_apply, val_main_v7_apply, val_main_v5_apply, e_tgt, val_main_v3_apply, val_main_v10_apply,
    val_main_v9_apply, e_b1]
  simp only [val_main_v0_apply, val_main_v1_apply, e_src_l, e_src_r, e_tgt_l, e_tgt_r]
  rfl

/-- The logits of the row (b, t, u). -/
def logitsAt : Fin 1024 → EReal := fun v => val_main_v16 (F := Ideal) x0 x2 x4 x5 x6 x7 (ix4 b t u v)

theorem logits_at :
    logitsAt x0 x2 x4 x5 x6 x7 b t u
      = logitRow (hiddenRow (srcRow x0 x4 b t) (tgtRow x2 x4 b u) (fun q => x5 (ix1 q))) (fun q c => x6 (ix2 q c)) (fun c => x7 (ix1 c)) := by
  funext v
  unfold logitsAt
  rw [val_main_v16_apply, val_main_v13_apply, val_main_v15_apply, val_main_v14_apply, e_b2]
  simp only [e_hid, e_w2, hidden_at]
  rfl

theorem neg_inf_word : Ideal.ofBits .f32 0xFF800000#32 = (⊥ : EReal) := by
  simp [Ideal.ofBits, Ideal.ieee]

/-- The row's maximum: the max-reduce from minus infinity, and one more maximum with minus infinity. -/
theorem max_at : val_main_call0_v2 (F := Ideal) x0 x2 x4 x5 x6 x7 (ix3 b t u) = rowMax (logitsAt x0 x2 x4 x5 x6 x7 b t u) := by
  rw [val_main_call0_v2_apply, val_main_call0_v1_apply, val_main_call0_cst_0_apply]
  unfold val_main_call0_v0
  have hR : S4x128x64x1024.Reduces [(3 : Fin 4)] S4x128x64 := by decide
  have hfold := Host.reduce_eq_fold_single (FloatOps.maximumf (F := Ideal) (φ := .f32)) (val_main_v16 (F := Ideal) x0 x2 x4 x5 x6 x7)
    (val_main_call0_cst (F := Ideal)) reducesTo_S4x128x64x1024_S4x128x64_d3 hR h_S_ (ix3 b t u)
  refine (congrArg (FloatOps.maximumf (F := Ideal) (φ := .f32) (FloatOps.ofBits .f32 0xFF800000#32)) hfold).trans ?_
  show max (Ideal.ofBits .f32 0xFF800000#32) (Finset.fold max (Ideal.ofBits .f32 0xFF800000#32) _ Finset.univ) = _
  rw [neg_inf_word, max_eq_right bot_le, ← neg_inf_word]
  unfold rowMax logitsAt
  exact congrArg (Finset.fold max (Ideal.ofBits .f32 0xFF800000#32) · (Finset.univ : Finset (Fin 1024)))
    (funext fun c => congrArg (val_main_v16 (F := Ideal) x0 x2 x4 x5 x6 x7) (e_lift b t u c hR))

theorem shifted_at (v : Fin 1024) :
    val_main_call0_v5 (F := Ideal) x0 x2 x4 x5 x6 x7 (ix4 b t u v) = logitsAt x0 x2 x4 x5 x6 x7 b t u v - rowMax (logitsAt x0 x2 x4 x5 x6 x7 b t u) := by
  rw [val_main_call0_v5_apply, val_main_call0_v4_apply, val_main_call0_v3_apply, e_max, max_at]
  rfl

/-- THE REFERENCE'S RESULT, at (b, t, u, v): the log-softmax of the row's logits. -/
theorem out_at (v : Fin 1024) :
    val_main_v17 (F := Ideal) x0 x2 x4 x5 x6 x7 (ix4 b t u v) = logSoftmaxRow (logitsAt x0 x2 x4 x5 x6 x7 b t u) v := by
  rw [val_main_v17_apply, val_main_call0_v10_apply, val_main_call0_v9_apply, val_main_call0_v8_apply, e_lse,
    val_main_call0_v7_apply, val_main_call0_cst_1_apply, shifted_at]
  unfold logSoftmaxRow
  show _ - Ideal.log (Ideal.ofBits .f32 0x00000000#32 + _) = _
  rw [Ideal.ofBits_zero_f32, zero_add]
  refine congrArg (fun s => _ - Ideal.log s) (Finset.sum_congr rfl fun c _ => ?_)
  rw [e_sum, val_main_call0_v6_apply, shifted_at]
  rfl

end Stages

/-- The reference's result array is `result` of its arguments. -/
theorem reference_eq (x0 : (⟨S4x128x512, .f32⟩ : BufTy).Contents (Elt Ideal)) (x2 : (⟨S4x64x512, .f32⟩ : BufTy).Contents (Elt Ideal))
    (x4 : (⟨S1024x640, .f32⟩ : BufTy).Contents (Elt Ideal)) (x5 : (⟨S640, .f32⟩ : BufTy).Contents (Elt Ideal))
    (x6 : (⟨S640x1024, .f32⟩ : BufTy).Contents (Elt Ideal)) (x7 : (⟨S1024, .f32⟩ : BufTy).Contents (Elt Ideal)) :
    val_main_v17 (F := Ideal) x0 x2 x4 x5 x6 x7 = result x0 x2 x4 x5 x6 x7 := by
  funext i
  obtain ⟨b, t, u, v, rfl⟩ : ∃ (b : Fin 4) (t : Fin 128) (u : Fin 64) (v : Fin 1024), i = ix4 b t u v :=
    ⟨i 0, i 1, i 2, i 3, eq_ix4 i⟩
  rw [out_at, logits_at]
  rfl

end Cert.ReferenceIdeal.Joiner

end
-- ==== Proof.lean ====
/- The transducer joiner's kernel against its jnp reference, over the exact extended reals.

   Both programs compute, for source frame t and target position u of batch b and vocabulary entry v,
       out[b, t, u, v] = (l[v] − M) − log Σ_k exp(l[k] − M),     l = tanh((ps + pt) + b1) · W2 + b2,   M = max_k l[k],
   with ps the frame's 512 features against the upper 512 rows of W1 and pt the position's against the lower 512 rows
   (Cert.Joiner.result, JoinerSpec). The kernel computes it block by block: grid point (b, j) handles frames 32j … 32j + 31 of
   batch b in eight chunks of four frames, each chunk one matrix product of 256 rows with W2 and a row-wise log-softmax
   (JoinerChunk, JoinerBlock), and the sixteen blocks tile the output (JoinerArray). The reference computes it with three
   dot products over whole arrays and jax's log_softmax (JoinerReference, over the reference's run read stage by stage).
   The two differ only in arrangements that are equalities on every extended real: a narrowing to bf16 is the identity, a
   matrix product into a zero accumulator is the dot product's sum, the 640-term and 1024-term sums run over the same
   indices, and a maximum with minus infinity is the identity. No finiteness of the inputs is used for the values.

   The three frames are the generated frame runs (the reference's: its run with the result dropped), and the kernel's
   idealization rewrote no operation, so that conjunct is trivial. -/
import proofs.«153883_j29824252903691_2_alg».proof.Defs
import proofs.«153883_j29824252903691_2_alg».proof.Proof.Gen.Kernel
import proofs.«153883_j29824252903691_2_alg».proof.Proof.Gen.Kernel.Skeleton
import proofs.«153883_j29824252903691_2_alg».proof.Proof.Gen.Kernel.Launch
import proofs.«153883_j29824252903691_2_alg».proof.Proof.Gen.Kernel.Points
import proofs.«153883_j29824252903691_2_alg».proof.Proof.Gen.Kernel.Frame
import proofs.«153883_j29824252903691_2_alg».proof.Proof.Gen.KernelIdeal
import proofs.«153883_j29824252903691_2_alg».proof.Proof.Gen.KernelIdeal.Skeleton
import proofs.«153883_j29824252903691_2_alg».proof.Proof.Gen.KernelIdeal.Launch
import proofs.«153883_j29824252903691_2_alg».proof.Proof.Gen.KernelIdeal.Points
import proofs.«153883_j29824252903691_2_alg».proof.Proof.Gen.KernelIdeal.Frame
import proofs.«153883_j29824252903691_2_alg».proof.Proof.Gen.ReferenceIdeal
import proofs.«153883_j29824252903691_2_alg».proof.Proof.Gen.Pre_finite_inputs
import proofs.«153883_j29824252903691_2_alg».proof.Proof.Gen.KernelIdeal.Value
import proofs.«153883_j29824252903691_2_alg».proof.Proof.ReferenceRun
import proofs.«153883_j29824252903691_2_alg».proof.Proof.ReferenceRead
import proofs.«153883_j29824252903691_2_alg».proof.Proof.JoinerArray
import proofs.«153883_j29824252903691_2_alg».proof.Proof.JoinerReference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- Both programs end with the output array at `Cert.Joiner.result` of the six float arguments, which agree, and with the
    two length vectors as launched. -/
theorem algebraic : Cert.algebraic_KernelIdeal_ReferenceIdeal := by
  intro m ρ m' ρ' _ hagree
  refine ⟨fun c => Cert.KernelIdeal.Array.resultArr m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · exact (θ_run Cert.KernelIdeal.defs _ _).mono
      (fun _ h c => ⟨(h c).1, (h c).2.2.1, (h c).2.2.2.2.1, (h c).2⟩) (Cert.KernelIdeal.Array.run m ρ)
  · refine (θ_run Cert.ReferenceIdeal.defs _ _).mono
      (fun _ h c => ⟨?_, (h c).2.1.trans (hagree c).2.1, (h c).2.2.1.trans (hagree c).2.2.2.1, (h c).2.2.2⟩)
      (Cert.ReferenceIdeal.ValueP.run (F := Ideal) m' ρ')
    rw [(h c).1, Cert.ReferenceIdeal.ReadP.val_main_v17_eq, Cert.ReferenceIdeal.Joiner.reference_eq, (hagree c).1,
      (hagree c).2.2.1, (hagree c).2.2.2.2.1, (hagree c).2.2.2.2.2.1, (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
